-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x20x33 : Shape := ⟨3, ![16384, 20, 33]⟩
abbrev S16384x10x33 : Shape := ⟨3, ![16384, 10, 33]⟩
abbrev S16384x30x33 : Shape := ⟨3, ![16384, 30, 33]⟩
abbrev S_ : Shape := ⟨0, ![]⟩

class Facts : Prop where
  bcast_S_S16384x20x33 : S_.BroadcastsInDim S16384x20x33 (![] : Fin 0 → Fin S16384x20x33.rank)
  reducesTo_S16384x20x33_S_d0_1_2 : S16384x20x33.ReducesTo [0, 1, 2] S_
  h_S_ : 0 < S_.numel
  bcast_S_S16384x10x33 : S_.BroadcastsInDim S16384x10x33 (![] : Fin 0 → Fin S16384x10x33.rank)
  reducesTo_S16384x10x33_S_d0_1_2 : S16384x10x33.ReducesTo [0, 1, 2] S_
  bcast_S_S16384x30x33 : S_.BroadcastsInDim S16384x30x33 (![] : Fin 0 → Fin S16384x30x33.rank)
  reducesTo_S16384x30x33_S_d0_1_2 : S16384x30x33.ReducesTo [0, 1, 2] S_

variable [Facts]

def fn {F : FTy → Type} [FloatOps F] (main_arg0 : FVec F S16384x20x33 .f32) (main_arg1 : FVec F S16384x10x33 .f32) (main_arg2 : FVec F S16384x30x33 .f32) : IVec S_ 1 :=
  let main_v0 : FVec F S16384x20x33 .f32 := Host.absf main_arg0
  let main_cst : FVec F S_ .f32 := constant S_ .f32 0x7F800000#32
  let main_v1 : FVec F S16384x20x33 .f32 := broadcastInDim S16384x20x33 ![] bcast_S_S16384x20x33 main_cst
  let main_v2 : IVec S16384x20x33 1 := cmpf .olt main_v0 main_v1
  let main_c : IVec S_ 1 := constantI S_ 1 1#1
  let main_v3 : IVec S_ 1 := (fun x v => Host.reduce IntOp.andi x v reducesTo_S16384x20x33_S_d0_1_2 h_S_) main_v2 main_c
  let main_v4 : FVec F S16384x10x33 .f32 := Host.absf main_arg1
  let main_cst_0 : FVec F S_ .f32 := constant S_ .f32 0x7F800000#32
  let main_v5 : FVec F S16384x10x33 .f32 := broadcastInDim S16384x10x33 ![] bcast_S_S16384x10x33 main_cst_0
  let main_v6 : IVec S16384x10x33 1 := cmpf .olt main_v4 main_v5
  let main_c_1 : IVec S_ 1 := constantI S_ 1 1#1
  let main_v7 : IVec S_ 1 := (fun x v => Host.reduce IntOp.andi x v reducesTo_S16384x10x33_S_d0_1_2 h_S_) main_v6 main_c_1
  let main_v8 : IVec S_ 1 := andi main_v3 main_v7
  let main_v9 : FVec F S16384x30x33 .f32 := Host.absf main_arg2
  let main_cst_2 : FVec F S_ .f32 := constant S_ .f32 0x7F800000#32
  let main_v10 : FVec F S16384x30x33 .f32 := broadcastInDim S16384x30x33 ![] bcast_S_S16384x30x33 main_cst_2
  let main_v11 : IVec S16384x30x33 1 := cmpf .olt main_v9 main_v10
  let main_c_3 : IVec S_ 1 := constantI S_ 1 1#1
  let main_v12 : IVec S_ 1 := (fun x v => Host.reduce IntOp.andi x v reducesTo_S16384x30x33_S_d0_1_2 h_S_) main_v11 main_c_3
  let main_v13 : IVec S_ 1 := andi main_v8 main_v12
  main_v13
-- ==== Kernel.lean ====
abbrev S16384x20x33 : Shape := ⟨3, ![16384, 20, 33]⟩
abbrev S16384x10x33 : Shape := ⟨3, ![16384, 10, 33]⟩
abbrev S16384x30x33 : Shape := ⟨3, ![16384, 30, 33]⟩
abbrev S16384x1 : Shape := ⟨2, ![16384, 1]⟩
abbrev S128x20x33 : Shape := ⟨3, ![128, 20, 33]⟩
abbrev S128x10x33 : Shape := ⟨3, ![128, 10, 33]⟩
abbrev S128x30x33 : Shape := ⟨3, ![128, 30, 33]⟩
abbrev S128x1 : Shape := ⟨2, ![128, 1]⟩
abbrev S128x20x32 : Shape := ⟨3, ![128, 20, 32]⟩
abbrev S128x20x1 : Shape := ⟨3, ![128, 20, 1]⟩
abbrev S128x32 : Shape := ⟨2, ![128, 32]⟩
abbrev S128x10x32 : Shape := ⟨3, ![128, 10, 32]⟩
abbrev S128x10x1 : Shape := ⟨3, ![128, 10, 1]⟩
abbrev S128x30x32 : Shape := ⟨3, ![128, 30, 32]⟩
abbrev S128x30x1 : Shape := ⟨3, ![128, 30, 1]⟩
abbrev S128 : Shape := ⟨1, ![128]⟩
abbrev S16384 : Shape := ⟨1, ![16384]⟩

abbrev nBuf : Space → Nat
  | .hbm => 5
  | .vmem => 8
  | .smem => 0
  | _ => 0

abbrev bufTy : (tb : Table) → Fin (tcTables nBuf tb) → BufTy
  | .hbm, ⟨0, _⟩ => ⟨S16384x20x33, .f32⟩
  | .hbm, ⟨1, _⟩ => ⟨S16384x10x33, .f32⟩
  | .hbm, ⟨2, _⟩ => ⟨S16384x30x33, .f32⟩
  | .hbm, ⟨3, _⟩ => ⟨S16384x1, .f32⟩
  | .hbm, ⟨4, _⟩ => ⟨S16384, .f32⟩
  | .local _ .vmem, ⟨0, _⟩ => ⟨S128x20x33, .f32⟩
  | .local _ .vmem, ⟨1, _⟩ => ⟨S128x20x33, .f32⟩
  | .local _ .vmem, ⟨2, _⟩ => ⟨S128x10x33, .f32⟩
  | .local _ .vmem, ⟨3, _⟩ => ⟨S128x10x33, .f32⟩
  | .local _ .vmem, ⟨4, _⟩ => ⟨S128x30x33, .f32⟩
  | .local _ .vmem, ⟨5, _⟩ => ⟨S128x30x33, .f32⟩
  | .local _ .vmem, ⟨6, _⟩ => ⟨S128x1, .f32⟩
  | .local _ .vmem, ⟨7, _⟩ => ⟨S128x1, .f32⟩
  | _, _ => ⟨S16384x20x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x20x33 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10x33 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x30x33 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x20x33_S128x20x33_0_0_0 : ∀ a, (![0, 0, 0] : Fin 3 → Nat) a + S128x20x33.size a ≤ S128x20x33.size a
  h_S128x20x33 : 0 < S128x20x33.numel
  slices_S128x20x33_o0_0_0_S128x20x32 : S128x20x33.Slices ![0, 0, 0] S128x20x32
  slices_S128x20x33_o0_0_32_S128x20x1 : S128x20x33.Slices ![0, 0, 32] S128x20x1
  reduces_S128x20x32_S128x32 : S128x20x32.Reduces [1] S128x32
  reduces_S128x20x1_S128x1 : S128x20x1.Reduces [1] S128x1
  inb_S128x10x33_S128x10x33_0_0_0 : ∀ a, (![0, 0, 0] : Fin 3 → Nat) a + S128x10x33.size a ≤ S128x10x33.size a
  h_S128x10x33 : 0 < S128x10x33.numel
  slices_S128x10x33_o0_0_0_S128x10x32 : S128x10x33.Slices ![0, 0, 0] S128x10x32
  slices_S128x10x33_o0_0_32_S128x10x1 : S128x10x33.Slices ![0, 0, 32] S128x10x1
  reduces_S128x10x32_S128x32 : S128x10x32.Reduces [1] S128x32
  reduces_S128x10x1_S128x1 : S128x10x1.Reduces [1] S128x1
  inb_S128x30x33_S128x30x33_0_0_0 : ∀ a, (![0, 0, 0] : Fin 3 → Nat) a + S128x30x33.size a ≤ S128x30x33.size a
  h_S128x30x33 : 0 < S128x30x33.numel
  slices_S128x30x33_o0_0_0_S128x30x32 : S128x30x33.Slices ![0, 0, 0] S128x30x32
  slices_S128x30x33_o0_0_32_S128x30x1 : S128x30x33.Slices ![0, 0, 32] S128x30x1
  reduces_S128x30x32_S128x32 : S128x30x32.Reduces [1] S128x32
  reduces_S128x30x1_S128x1 : S128x30x1.Reduces [1] S128x1
  reduces_S128x32_S128 : S128x32.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S16384x1_S16384 : S16384x1.ShapeCasts S16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x20x33.size a ≤ S16384x20x33.size a
  hwx0_0 : ∀ i : grid0.Coords, EltTy.bits .f32 = 32 ∨ (Rect.block (s := S16384x20x33) S128x20x33.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x10x33.size a ≤ S16384x10x33.size a
  hwx0_1 : ∀ i : grid0.Coords, EltTy.bits .f32 = 32 ∨ (Rect.block (s := S16384x10x33) S128x10x33.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x30x33.size a ≤ S16384x30x33.size a
  hwx0_2 : ∀ i : grid0.Coords, EltTy.bits .f32 = 32 ∨ (Rect.block (s := S16384x30x33) S128x30x33.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S16384x1.size a
  hwx0_3 : ∀ i : grid0.Coords, EltTy.bits .f32 = 32 ∨ (Rect.block (s := S16384x1) S128x1.size (cc0_transform_3 i) (hinb0_3 i)).WholeWords (EltTy.packing .f32)

variable [Facts₀]

abbrev win0_0 : Pipeline.Window sig grid0 :=
  Pipeline.Window.ofSpec (Memref.whole main_arg0) S128x20x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x10x33.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x30x33.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x20x33 : Shape := ⟨3, ![16384, 20, 33]⟩
abbrev S16384x10x33 : Shape := ⟨3, ![16384, 10, 33]⟩
abbrev S16384x30x33 : Shape := ⟨3, ![16384, 30, 33]⟩
abbrev S16384x60x33 : Shape := ⟨3, ![16384, 60, 33]⟩
abbrev S16384x60x32 : Shape := ⟨3, ![16384, 60, 32]⟩
abbrev S16384x60x1 : Shape := ⟨3, ![16384, 60, 1]⟩
abbrev S16384x60 : Shape := ⟨2, ![16384, 60]⟩
abbrev S_ : Shape := ⟨0, ![]⟩
abbrev S16384x32 : Shape := ⟨2, ![16384, 32]⟩
abbrev S16384 : Shape := ⟨1, ![16384]⟩

abbrev nBuf : Space → Nat
  | .hbm => 30
  | .vmem => 0
  | .smem => 0
  | _ => 0

abbrev bufTy : (tb : Table) → Fin (tcTables nBuf tb) → BufTy
  | .hbm, ⟨0, _⟩ => ⟨S16384x20x33, .f32⟩
  | .hbm, ⟨1, _⟩ => ⟨S16384x10x33, .f32⟩
  | .hbm, ⟨2, _⟩ => ⟨S16384x30x33, .f32⟩
  | .hbm, ⟨3, _⟩ => ⟨S16384x60x33, .f32⟩
  | .hbm, ⟨4, _⟩ => ⟨S16384x60x32, .f32⟩
  | .hbm, ⟨5, _⟩ => ⟨S16384x60x1, .f32⟩
  | .hbm, ⟨6, _⟩ => ⟨S16384x60, .f32⟩
  | .hbm, ⟨7, _⟩ => ⟨S_, .f32⟩
  | .hbm, ⟨8, _⟩ => ⟨S16384x32, .f32⟩
  | .hbm, ⟨9, _⟩ => ⟨S16384x60x32, .f32⟩
  | .hbm, ⟨10, _⟩ => ⟨S_, .f32⟩
  | .hbm, ⟨11, _⟩ => ⟨S16384x32, .f32⟩
  | .hbm, ⟨12, _⟩ => ⟨S16384x32, .f32⟩
  | .hbm, ⟨13, _⟩ => ⟨S16384x32, .f32⟩
  | .hbm, ⟨14, _⟩ => ⟨S_, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | _, _ => ⟨S16384x20x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  concatenates_S16384x20x33_S16384x10x33_S16384x30x33_S16384x60x33_d1 : Shape.Concatenates [S16384x20x33, S16384x10x33, S16384x30x33] S16384x60x33 1
  slices_S16384x60x33_S16384x60x32_0_0_0 : S16384x60x33.Slices ![0, 0, 0] S16384x60x32
  slices_S16384x60x33_S16384x60x1_0_0_32 : S16384x60x33.Slices ![0, 0, 32] S16384x60x1
  shapeCasts_S16384x60x1_S16384x60 : S16384x60x1.ShapeCasts S16384x60
  reducesTo_S16384x60x32_S16384x32_d1 : S16384x60x32.ReducesTo [1] S16384x32
  h_S_ : 0 < S_.numel
  reducesTo_S16384x32_S16384_d1 : S16384x32.ReducesTo [1] S16384
  bcast_S_S16384 : S_.BroadcastsInDim S16384 (![] : Fin 0 → Fin S16384.rank)
  reducesTo_S16384x60_S16384_d1 : S16384x60.ReducesTo [1] S16384

variable [Facts₀]

class Facts : Prop extends Facts₀ where

variable [Facts]
-- ==== Proof.Spec.lean ====
/-
  The factorization-machine score of one sample, as a function of the three groups of field vectors.

  A sample has sixty fields in three groups (20, 10 and 30 of them); a field is a vector of 33 numbers, the first 32
  its latent factors and the last its linear term. With `s l` the sum over all sixty fields of coordinate `l`, and
  `q l` the sum of that coordinate's squares, the score of the sample is

      σ( ½ · Σ_{l < 32} (s l · s l − q l)  +  s 32 ),        σ z = 1 / (1 + e^(−z)),

  read on the extended reals. A sum over the sixty fields is written as the three groups' sums added, in the groups'
  order; `sum_sixty` says that this is the sum over the groups laid end to end, which needs only that addition is
  commutative and associative, so no finiteness. Stated for any number `n` of samples: one term serves a block of
  rows and the whole array.
-/
import Idealize.ShloMosaic.PureOps.Ideal
import Idealize.ShloMosaic.PureOps.Ideal.Laws
import Idealize.ShloMosaic.Lib.ValueIdx

noncomputable section

namespace Cert.FmScore

open Idealize.ShloMosaic Idealize.ShloMosaic.ValueIdx

/-- One group's array: `n` samples, `k` fields, 33 numbers a field. -/
abbrev Fields (n k : ℕ) : Type := (⟨3, ![n, k, 33]⟩ : Shape).Idx → EReal

/-- A latent coordinate among the 33 numbers of a field. -/
abbrev latent (l : Fin 32) : Fin 33 := ⟨l.val, by omega⟩

/-- The linear term's coordinate: the last of the 33. -/
abbrev linear : Fin 33 := ⟨32, by omega⟩

variable {n : ℕ}

/-- Coordinate `l` summed over the sixty fields of sample `b`. -/
def fieldSum (u : Fields n 20) (x : Fields n 10) (d : Fields n 30) (b : Fin n) (l : Fin 33) : EReal :=
  (∑ f : Fin 20, u (ix3 b f l)) + (∑ f : Fin 10, x (ix3 b f l)) + (∑ f : Fin 30, d (ix3 b f l))

/-- The squares of coordinate `l` summed over the sixty fields of sample `b`. -/
def fieldSqSum (u : Fields n 20) (x : Fields n 10) (d : Fields n 30) (b : Fin n) (l : Fin 33) : EReal :=
  (∑ f : Fin 20, u (ix3 b f l) * u (ix3 b f l)) + (∑ f : Fin 10, x (ix3 b f l) * x (ix3 b f l))
    + (∑ f : Fin 30, d (ix3 b f l) * d (ix3 b f l))

/-- The argument of the sigmoid: half the pairwise cross term over the latent coordinates, plus the linear terms. -/
def logit (u : Fields n 20) (x : Fields n 10) (d : Fields n 30) (b : Fin n) : EReal :=
  Ideal.ofBits .f32 0x3F000000#32
      * (∑ l : Fin 32, (fieldSum u x d b (latent l) * fieldSum u x d b (latent l) - fieldSqSum u x d b (latent l)))
    + fieldSum u x d b linear

/-- The score of sample `b`. -/
def score (u : Fields n 20) (x : Fields n 10) (d : Fields n 30) (b : Fin n) : EReal :=
  Ideal.logistic (logit u x d b)

/-- The score of a sample depends only on that sample's own fields: two families of arrays whose rows `b` and `b'`
    agree give the same score there. -/
theorem score_congr {n' : ℕ} (u : Fields n 20) (x : Fields n 10) (d : Fields n 30)
    (u' : Fields n' 20) (x' : Fields n' 10) (d' : Fields n' 30) (b : Fin n) (b' : Fin n')
    (hu : ∀ f l, u (ix3 b f l) = u' (ix3 b' f l)) (hx : ∀ f l, x (ix3 b f l) = x' (ix3 b' f l))
    (hd : ∀ f l, d (ix3 b f l) = d' (ix3 b' f l)) : score u x d b = score u' x' d' b' := by
  unfold score logit fieldSum fieldSqSum
  simp only [hu, hx, hd]

/-- A sum over sixty positions is the sum over the first twenty, plus that over the next ten, plus that over the last
    thirty. -/
theorem sum_sixty {M : Type*} [AddCommMonoid M] (h : Fin 60 → M) :
    ∑ k : Fin 60, h k = (∑ f : Fin 20, h ⟨f.val, by omega⟩) + (∑ f : Fin 10, h ⟨20 + f.val, by omega⟩)
      + (∑ f : Fin 30, h ⟨30 + f.val, by omega⟩) := by
  refine (Fin.sum_univ_add (a := 30) (b := 30) h).trans ?_
  refine congrArg₂ (· + ·) ?_ rfl
  exact Fin.sum_univ_add (a := 20) (b := 10) (fun i => h (Fin.castAdd 30 i))

/-- The f32 pattern of one is the number one. -/
theorem one_f32 : Ideal.ofBits .f32 0x3F800000#32 = 1 := by
  simp [Ideal.ofBits, Ideal.ieee, -EReal.coe_mul]; norm_num

/-- The sigmoid spelt out with the f32 pattern of one, as a program that divides one by one plus an exponential
    spells it, is the sigmoid. -/
theorem logistic_spelt (z : EReal) :
    Ideal.div (Ideal.ofBits .f32 0x3F800000#32) (Ideal.ofBits .f32 0x3F800000#32 + Ideal.exp (-z)) = Ideal.logistic z := by
  rw [one_f32]; rfl

end Cert.FmScore

end
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelBody.lean ====
/-
  What the kernel's body stores, read at an index.

  The body loads one block of 128 samples from each of the three groups, and for each group sums the 32 latent
  numbers of a field, their squares, and the last (linear) number over the group's fields; adds the three groups'
  sums; forms the cross term, halves it, adds the linear terms and applies the sigmoid. Its result is a column
  `[128, 1]`; at row `r` it is the score of row `r` of the three loaded blocks.
-/
import proofs.«176207_j30408368456213_1_alg».proof.Proof.Gen.KernelIdeal.Skeleton
import proofs.«176207_j30408368456213_1_alg».proof.Proof.Spec
import proofs.«176207_j30408368456213_1_alg».proof.Proof.LibColumns
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.FmScore

/-! ## The body's operations that are not pointwise, at an index -/

/-- An `[n, k, w]` array summed over its middle axis, read at `(r, l)`: the sum over the `k` middle coordinates. -/
theorem sum_mid_apply {n k w : ℕ} (v : FVec Ideal ⟨3, ![n, k, w]⟩ .f32)
    (h : (⟨3, ![n, k, w]⟩ : Shape).Reduces [1] ⟨2, ![n, w]⟩) (hφ : FTy.f32 = FTy.f32 ∨ FTy.f32 = FTy.bf16)
    (hacc : (0x00000000#32 : BitVec 32) = 0x00000000#32) (r : Fin n) (l : Fin w) :
    multiReduction .add [1] ⟨2, ![n, w]⟩ v 0x00000000#32 h hφ hacc (ix2 r l) = ∑ f : Fin k, v (ix3 r f l) :=
  (Ideal.multiReduction_add_single v 0x00000000#32 h hφ hacc (ix2 r l)).trans
    (Finset.sum_congr rfl fun f _ => congrArg v (funext fun a => Fin.ext (by
      match a with
      | ⟨0, _⟩ => rfl
      | ⟨1, _⟩ => rfl
      | ⟨2, _⟩ => rfl)))

/-- An `[n, w]` array summed over its last axis, read at `r`: the sum over the `w` last coordinates. -/
theorem sum_last_apply {n w : ℕ} (v : FVec Ideal ⟨2, ![n, w]⟩ .f32)
    (h : (⟨2, ![n, w]⟩ : Shape).Reduces [1] ⟨1, ![n]⟩) (hφ : FTy.f32 = FTy.f32 ∨ FTy.f32 = FTy.bf16)
    (hacc : (0x00000000#32 : BitVec 32) = 0x00000000#32) (r : Fin n) :
    multiReduction .add [1] ⟨1, ![n]⟩ v 0x00000000#32 h hφ hacc (ix1 r) = ∑ l : Fin w, v (ix2 r l) :=
  (Ideal.multiReduction_add_single v 0x00000000#32 h hφ hacc (ix1 r)).trans
    (Finset.sum_congr rfl fun l _ => congrArg v (funext fun a => Fin.ext (by
      match a with
      | ⟨0, _⟩ => rfl
      | ⟨1, _⟩ => rfl)))

/-- The first 32 numbers of every field: the slice at `(r, f, l)` is the array at `(r, f, l)`. -/
theorem latent_slice_apply {n k : ℕ} (v : (⟨3, ![n, k, 33]⟩ : Shape).Idx → EReal)
    (h : (⟨3, ![n, k, 33]⟩ : Shape).Slices ![0, 0, 0] ⟨3, ![n, k, 32]⟩) (r : Fin n) (f : Fin k) (l : Fin 32) :
    extractStridedSlice ⟨3, ![n, k, 32]⟩ ![0, 0, 0] v h (ix3 r f l) = v (ix3 r f (latent l)) :=
  extractStridedSlice_apply _ v h _ _ fun a => by
    match a with
    | ⟨0, _⟩ => show r.val = 0 + r.val; omega
    | ⟨1, _⟩ => show f.val = 0 + f.val; omega
    | ⟨2, _⟩ => show l.val = 0 + l.val; omega

/-- The last number of every field, kept as a unit axis: the slice at `(r, f, ·)` is the array at `(r, f, 32)`. -/
theorem linear_slice_apply {n k : ℕ} (v : (⟨3, ![n, k, 33]⟩ : Shape).Idx → EReal)
    (h : (⟨3, ![n, k, 33]⟩ : Shape).Slices ![0, 0, 32] ⟨3, ![n, k, 1]⟩) (r : Fin n) (f : Fin k) (u : Fin 1) :
    extractStridedSlice ⟨3, ![n, k, 1]⟩ ![0, 0, 32] v h (ix3 r f u) = v (ix3 r f linear) :=
  extractStridedSlice_apply _ v h _ _ fun a => by
    match a with
    | ⟨0, _⟩ => show r.val = 0 + r.val; omega
    | ⟨1, _⟩ => show f.val = 0 + f.val; omega
    | ⟨2, _⟩ => show 32 = 32 + u.val; omega

/-- The sigmoid, lane by lane. -/
theorem logistic_apply {s : Shape} (a : FVec Ideal s .f32) (i : s.Idx) : logistic a i = Ideal.logistic (a i) := rfl

/-! ## One group's three sums, at an index -/

/-- The latent coordinate `l` of row `r`, summed over a group's fields. -/
theorem group_sum_at {n k : ℕ} (v : (⟨3, ![n, k, 33]⟩ : Shape).Idx → EReal)
    (hs : (⟨3, ![n, k, 33]⟩ : Shape).Slices ![0, 0, 0] ⟨3, ![n, k, 32]⟩)
    (hr : (⟨3, ![n, k, 32]⟩ : Shape).Reduces [1] ⟨2, ![n, 32]⟩) (hφ : FTy.f32 = FTy.f32 ∨ FTy.f32 = FTy.bf16)
    (hacc : (0x00000000#32 : BitVec 32) = 0x00000000#32) (r : Fin n) (l : Fin 32) :
    multiReduction (F := Ideal) (φ := .f32) .add [1] ⟨2, ![n, 32]⟩ (extractStridedSlice ⟨3, ![n, k, 32]⟩ ![0, 0, 0] v hs) 0x00000000#32 hr hφ hacc (ix2 r l)
      = ∑ f : Fin k, v (ix3 r f (latent l)) :=
  (sum_mid_apply _ hr hφ hacc r l).trans (Finset.sum_congr rfl fun f _ => latent_slice_apply v hs r f l)

/-- The squares of the latent coordinate `l` of row `r`, summed over a group's fields. -/
theorem group_sq_sum_at {n k : ℕ} (v : (⟨3, ![n, k, 33]⟩ : Shape).Idx → EReal)
    (hs : (⟨3, ![n, k, 33]⟩ : Shape).Slices ![0, 0, 0] ⟨3, ![n, k, 32]⟩)
    (hr : (⟨3, ![n, k, 32]⟩ : Shape).Reduces [1] ⟨2, ![n, 32]⟩) (hφ : FTy.f32 = FTy.f32 ∨ FTy.f32 = FTy.bf16)
    (hacc : (0x00000000#32 : BitVec 32) = 0x00000000#32) (r : Fin n) (l : Fin 32) :
    multiReduction .add [1] ⟨2, ![n, 32]⟩
        (mulf (F := Ideal) (φ := .f32) (extractStridedSlice ⟨3, ![n, k, 32]⟩ ![0, 0, 0] v hs)
          (extractStridedSlice ⟨3, ![n, k, 32]⟩ ![0, 0, 0] v hs)) 0x00000000#32 hr hφ hacc (ix2 r l)
      = ∑ f : Fin k, v (ix3 r f (latent l)) * v (ix3 r f (latent l)) :=
  (sum_mid_apply _ hr hφ hacc r l).trans (Finset.sum_congr rfl fun f _ =>
    congrArg₂ (· * ·) (latent_slice_apply v hs r f l) (latent_slice_apply v hs r f l))

/-- The linear term of row `r`, summed over a group's fields. -/
theorem group_lin_sum_at {n k : ℕ} (v : (⟨3, ![n, k, 33]⟩ : Shape).Idx → EReal)
    (hs : (⟨3, ![n, k, 33]⟩ : Shape).Slices ![0, 0, 32] ⟨3, ![n, k, 1]⟩)
    (hr : (⟨3, ![n, k, 1]⟩ : Shape).Reduces [1] ⟨2, ![n, 1]⟩) (hφ : FTy.f32 = FTy.f32 ∨ FTy.f32 = FTy.bf16)
    (hacc : (0x00000000#32 : BitVec 32) = 0x00000000#32) (r : Fin n) (u : Fin 1) :
    multiReduction (F := Ideal) (φ := .f32) .add [1] ⟨2, ![n, 1]⟩ (extractStridedSlice ⟨3, ![n, k, 1]⟩ ![0, 0, 32] v hs) 0x00000000#32 hr hφ hacc (ix2 r u)
      = ∑ f : Fin k, v (ix3 r f linear) :=
  (sum_mid_apply _ hr hφ hacc r u).trans (Finset.sum_congr rfl fun f _ => linear_slice_apply v hs r f u)

/-! ## The payload -/

/-- Row `r` of the column the body stores is the score of row `r` of the three loaded blocks. -/
theorem payload_at (v0 : Vec Ideal S128x20x33 .f32) (v7 : Vec Ideal S128x10x33 .f32) (v14 : Vec Ideal S128x30x33 .f32)
    (r : Fin 128) (u : Fin 1) : k0_pay1 (F := Ideal) v0 v7 v14 (ix2 r u) = score v0 v7 v14 r := by
  have hu : u = 0 := Fin.ext (by omega)
  subst hu
  unfold k0_pay1 score logit fieldSum fieldSqSum
  simp only [logistic_apply, addf_apply, mulf_apply, subf_apply, broadcast_apply, shapeCast_a_a1_apply, Ideal.ofBits_def]
  refine congrArg Ideal.logistic (congrArg₂ (· + ·) (congrArg (_ * ·) ?_) (congrArg₂ (· + ·) (congrArg₂ (· + ·) ?_ ?_) ?_))
  · refine (sum_last_apply _ _ _ _ r).trans (Finset.sum_congr rfl fun l _ => ?_)
    exact congrArg₂ (· - ·)
      (congrArg₂ (· * ·)
        (congrArg₂ (· + ·) (congrArg₂ (· + ·) (group_sum_at v0 _ _ _ _ r l) (group_sum_at v7 _ _ _ _ r l))
          (group_sum_at v14 _ _ _ _ r l))
        (congrArg₂ (· + ·) (congrArg₂ (· + ·) (group_sum_at v0 _ _ _ _ r l) (group_sum_at v7 _ _ _ _ r l))
          (group_sum_at v14 _ _ _ _ r l)))
      (congrArg₂ (· + ·) (congrArg₂ (· + ·) (group_sq_sum_at v0 _ _ _ _ r l) (group_sq_sum_at v7 _ _ _ _ r l))
        (group_sq_sum_at v14 _ _ _ _ r l))
  · exact group_lin_sum_at v0 _ _ _ _ r 0
  · exact group_lin_sum_at v7 _ _ _ _ r 0
  · exact group_lin_sum_at v14 _ _ _ _ r 0

end Cert.KernelIdeal.Body

end
-- ==== Proof.KernelValue.lean ====
/-
  The kernel's result array.

  The grid has 128 points; point `t` is handed rows `128 t … 128 t + 127` of each of the three groups' arrays and
  writes back rows `128 t … 128 t + 127` of the `[16384, 1]` output column. A row of a block is a row of its array,
  and the score of a sample reads that sample's row only, so what point `t` writes back is block `t` of ONE column:
  the score of every sample. Every row lies in the block of point `row / 128`, so after the last point the output
  array is that column; the reshape that follows the region drops its unit axis.
-/
import proofs.«176207_j30408368456213_1_alg».proof.Proof.Gen.KernelIdeal.Frame
import proofs.«176207_j30408368456213_1_alg».proof.Proof.KernelBody
import Idealize.ShloMosaic.Lib.Pipeline.Value
import Idealize.ShloMosaic.Lib.StableHlo.Run
import Idealize.ShloMosaic.Lib.Tactic

set_option maxRecDepth 16384

noncomputable section

namespace Cert.KernelIdeal.ScoreValue

open Cert.KernelIdeal Cert.KernelIdeal.Gen Idealize.ShloMosaic Idealize.ShloMosaic.TcCoe Idealize.SL.Sem
open Idealize.ShloMosaic.ValueIdx Cert.FmScore
open Idealize.ShloMosaic.Pipeline (Dat)

variable (m : (ℓ : Loc nD τ sig) → Buf (Elt Ideal) ℓ) (ρ : Dev nD → PrngReg)

/-- A block of the output column is stored whole: from offset zero on both axes. -/
theorem zero_offsets2 : (![0, 0] : Fin 2 → Nat) = fun _ => 0 := funext fun a => by fin_cases a <;> rfl
/-- A block of a group's array is loaded whole: from offset zero on all three axes. -/
theorem zero_offsets3 : (![0, 0, 0] : Fin 3 → Nat) = fun _ => 0 := funext fun a => by fin_cases a <;> rfl

/-- Where each window's block sits at point `t`: block `t` along the samples, the one block along every other axis. -/
theorem block_positions : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-! ## A row of a block is a row of its array -/

/-- Row `r` of the first group's block at point `t` is row `128 t + r` of the first group's array. -/
theorem first_group_row (c : Dev nD) (t : Fin cfg0.N) (r : Fin 128) (b : Fin 16384) (hb : b.val = t.val * 128 + r.val)
    (f : Fin 20) (l : Fin 33) :
    (iblk m c 0 t : Vec Ideal S128x20x33 .f32) (ix3 r f l) = (V m c main_arg0 : S16384x20x33.Idx → EReal) (ix3 b f l) := by
  obtain ⟨e0, e1, e2, -⟩ := block_positions t
  unfold iblk
  rw [View.read_apply]
  show V m c main_arg0 _ = V m c main_arg0 _
  congr 1
  funext a
  apply Fin.ext
  match a with
  | ⟨0, _⟩ => show win0_0.index t (0 : Fin 3) * 128 + 1 * r.val = b.val; rw [e0, hb]; omega
  | ⟨1, _⟩ => show win0_0.index t (1 : Fin 3) * 20 + 1 * f.val = f.val; rw [e1]; omega
  | ⟨2, _⟩ => show win0_0.index t (2 : Fin 3) * 33 + 1 * l.val = l.val; rw [e2]; omega

/-- The same for the second group. -/
theorem second_group_row (c : Dev nD) (t : Fin cfg0.N) (r : Fin 128) (b : Fin 16384) (hb : b.val = t.val * 128 + r.val)
    (f : Fin 10) (l : Fin 33) :
    (iblk m c 1 t : Vec Ideal S128x10x33 .f32) (ix3 r f l) = (V m c main_arg1 : S16384x10x33.Idx → EReal) (ix3 b f l) := by
  obtain ⟨-, -, -, e0, e1, e2, -⟩ := block_positions t
  unfold iblk
  rw [View.read_apply]
  show V m c main_arg1 _ = V m c main_arg1 _
  congr 1
  funext a
  apply Fin.ext
  match a with
  | ⟨0, _⟩ => show win0_1.index t (0 : Fin 3) * 128 + 1 * r.val = b.val; rw [e0, hb]; omega
  | ⟨1, _⟩ => show win0_1.index t (1 : Fin 3) * 10 + 1 * f.val = f.val; rw [e1]; omega
  | ⟨2, _⟩ => show win0_1.index t (2 : Fin 3) * 33 + 1 * l.val = l.val; rw [e2]; omega

/-- The same for the third group. -/
theorem third_group_row (c : Dev nD) (t : Fin cfg0.N) (r : Fin 128) (b : Fin 16384) (hb : b.val = t.val * 128 + r.val)
    (f : Fin 30) (l : Fin 33) :
    (iblk m c 2 t : Vec Ideal S128x30x33 .f32) (ix3 r f l) = (V m c main_arg2 : S16384x30x33.Idx → EReal) (ix3 b f l) := by
  obtain ⟨-, -, -, -, -, -, e0, e1, e2, -⟩ := block_positions t
  unfold iblk
  rw [View.read_apply]
  show V m c main_arg2 _ = V m c main_arg2 _
  congr 1
  funext a
  apply Fin.ext
  match a with
  | ⟨0, _⟩ => show win0_2.index t (0 : Fin 3) * 128 + 1 * r.val = b.val; rw [e0, hb]; omega
  | ⟨1, _⟩ => show win0_2.index t (1 : Fin 3) * 30 + 1 * f.val = f.val; rw [e1]; omega
  | ⟨2, _⟩ => show win0_2.index t (2 : Fin 3) * 33 + 1 * l.val = l.val; rw [e2]; omega

/-! ## The output column -/

/-- The score of every sample, as a column: what the output array ends holding. -/
abbrev scoreCol (c : Dev nD) : S16384x1.Idx → EReal :=
  fun i => score (V m c main_arg0) (V m c main_arg1) (V m c main_arg2) (i 0)

/-- What point `t` writes back is block `t` of the score column. -/
theorem point_writes_scores (c : Dev nD) (t : Fin cfg0.N) :
    (dats m 0 c).flushed 3 t = ((cfg0.win 3).blk t).view.read (Elt Ideal) (scoreCol m c) := by
  show (cfg0.win 3).cut (grid0.coords t) ((dats m 0 c).after 3 t) = _
  rw [after0_3]
  unfold out0_3
  rw [View.canon_unit_zero zero_offsets2]
  simp only [View.ld_unit_zero (S := S128x20x33) zero_offsets3, View.ld_unit_zero (S := S128x10x33) zero_offsets3,
    View.ld_unit_zero (S := S128x30x33) zero_offsets3]
  funext j
  obtain ⟨r, u, rfl⟩ : ∃ (r : Fin 128) (u : Fin 1), j = ix2 r u := ⟨j 0, j 1, eq_ix2 j⟩
  obtain ⟨-, -, -, -, -, -, -, -, -, e30, -⟩ := block_positions t
  show k0_pay1 (iblk m c 0 t) (iblk m c 1 t) (iblk m c 2 t) (ix2 r u)
    = score (V m c main_arg0) (V m c main_arg1) (V m c main_arg2) ((((cfg0.win 3).blk t).view.emb (ix2 r u)) 0)
  have hb : ((((cfg0.win 3).blk t).view.emb (ix2 r u)) 0).val = t.val * 128 + r.val := by
    show win0_3.index t (0 : Fin 2) * 128 + 1 * r.val = t.val * 128 + r.val
    rw [e30]; omega
  refine (Body.payload_at _ _ _ r u).trans ?_
  exact score_congr _ _ _ _ _ _ r _ (first_group_row m c t r _ hb) (second_group_row m c t r _ hb) (third_group_row m c t r _ hb)

/-- A sample's row is in point `t`'s block iff it is one of rows `128 t … 128 t + 127`. -/
theorem row_in_block_iff (t : Fin cfg0.N) (i : S16384x1.Idx) :
    i ∈ ((cfg0.win 3).blk t).view.set ↔ ∀ a : Fin 2, win0_3.index t a * S128x1.size a ≤ (i a).val
      ∧ (i a).val < win0_3.index t a * S128x1.size a + S128x1.size a := by
  show i ∈ ((View.whole main_v0).slice (win0_3.rect t)).set ↔ _
  rw [View.set_slice_whole, Rect.mem_set_unit]
  exact Iff.rfl

/-- Every row is written back by some point: row `i` by point `i / 128`. -/
theorem every_row_written (i : S16384x1.Idx) :
    ∃ t : Fin cfg0.N, (cfg0.win 3).flush t = true ∧ i ∈ ((cfg0.win 3).blk t).view.set := by
  have h0 : (i 0).val < 16384 := (i 0).isLt
  have h1 : (i 1).val < 1 := (i 1).isLt
  have hN : cfg0.N = 128 := N_0
  obtain ⟨t, ht⟩ : ∃ t : Fin cfg0.N, t.val = (i 0).val / 128 := ⟨⟨(i 0).val / 128, by rw [hN]; omega⟩, rfl⟩
  obtain ⟨-, -, -, -, -, -, -, -, -, e30, e31⟩ := block_positions t
  refine ⟨t, flush0_3 t, ?_⟩
  rw [row_in_block_iff]
  intro a
  match a with
  | ⟨0, _⟩ =>
    show win0_3.index t (0 : Fin 2) * 128 ≤ (i 0).val ∧ (i 0).val < win0_3.index t (0 : Fin 2) * 128 + 128
    rw [e30, ht]; omega
  | ⟨1, _⟩ =>
    show win0_3.index t (1 : Fin 2) * 1 ≤ (i 1).val ∧ (i 1).val < win0_3.index t (1 : Fin 2) * 1 + 1
    rw [e31]; omega

/-- After the last point the output array is the score column. -/
theorem output_is_scores (c : Dev nD) : (dats m 0 c).arrAt 3 cfg0.N = scoreCol m c :=
  (dats m 0 c).arrAt_eq_of_cover 3 (scoreCol m c) (fun t _ => point_writes_scores m c t) (every_row_written)

/-! ## The result -/

/-- The score of every sample, as a vector of the launch contents of the three arguments: the program's result. -/
abbrev scoreVec (c : Dev nD) : S16384.Idx → EReal :=
  fun i => score (m ((c.tc : Thread nD τ).loc main_arg0)) (m ((c.tc : Thread nD τ).loc main_arg1))
    (m ((c.tc : Thread nD τ).loc main_arg2)) (i 0)

/-- The reshape after the region reads the output column and drops its unit axis. -/
theorem result_is_scores (c : Dev nD) :
    Pipeline.afterTail₀ cfgs (dats m) 0 (V0 m) [hostOps1] c main_v1 = scoreVec m c := by
  unfold Pipeline.afterTail₀
  show StableHlo.after hostOps1 _ (Proc.devRef .tc main_v1) = _
  after_results
  rw [(Pipeline.withArrays_arr spec0 launch0.win.arr_inj c _ _ 3).trans (output_is_scores m c)]
  funext i
  obtain ⟨b, rfl⟩ : ∃ b : Fin 16384, i = ix1 b := ⟨i 0, eq_ix1 i⟩
  refine (shapeCast_apply _ _ (ix1 b) (ix2 b (0 : Fin 1)) ?_).trans rfl
  rw [Shape.rowMajor_val_two, Shape.rowMajor_val_one]
  show b.val * 1 + 0 = b.val
  omega

/-- The run, read: the result at the score vector, the arguments unchanged. -/
theorem run : θ_run defs (onTc (τ := τ) (main (F := Ideal))) ⟨m, fun _ => 0, ρ⟩ fun r => ∀ c : Dev nD,
      r.2.mem ((c.tc : Thread nD τ).loc main_v1) = scoreVec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v1 (Pipeline.mem_restRefs_of main_v1 rfl (fun w => by fin_cases w <;> decide))).trans (result_is_scores m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.ScoreValue

end
-- ==== Proof.RefValue.lean ====
/-
  The reference computes the score.

  The reference lays the three groups of fields end to end along the field axis (sixty fields a sample), takes the
  first 32 numbers of every field and the last one apart, sums both over the sixty fields, and applies the score's
  formula with the sigmoid spelt as one over one plus an exponential. Read at an index: a field `k` of the joined
  array is field `k` of the first group when `k < 20`, field `k − 20` of the second when `20 ≤ k < 30`, field
  `k − 30` of the third otherwise; so a sum over the sixty joined fields is the three groups' sums added, which is how
  the score is written. Every zero the sums start from is the number zero.
-/
import proofs.«176207_j30408368456213_1_alg».proof.Proof.Gen.ReferenceIdeal.Read
import proofs.«176207_j30408368456213_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.FmScore

variable (x0 : (⟨S16384x20x33, .f32⟩ : BufTy).Contents (Elt Ideal)) (x1 : (⟨S16384x10x33, .f32⟩ : BufTy).Contents (Elt Ideal))
  (x2 : (⟨S16384x30x33, .f32⟩ : BufTy).Contents (Elt Ideal))

/-! ## The joined array at an index -/

/-- A field among the first twenty of the joined array is that field of the first group. -/
theorem joined_first (b : Fin 16384) (f : Fin 20) (l : Fin 33) :
    val_main_v0 (F := Ideal) x0 x1 x2 (ix3 b (⟨f.val, by omega⟩ : Fin 60) l) = x0 (ix3 b f l) := by
  unfold val_main_v0
  refine concatenate_apply_piece (t := S16384x60x33) 1 [⟨S16384x20x33, x0⟩, ⟨S16384x10x33, x1⟩, ⟨S16384x30x33, x2⟩] _ _ 0 (by decide : (0 : ℕ) < 3) S16384x20x33 x0 rfl rfl 0 rfl (ix3 b f l) (fun a ha => ?_) ?_
  · match a with
    | ⟨0, _⟩ => rfl
    | ⟨1, _⟩ => exact absurd rfl ha
    | ⟨2, _⟩ => rfl
  · show 0 + f.val = f.val
    omega

/-- A field among the next ten is a field of the second group, twenty places earlier. -/
theorem joined_second (b : Fin 16384) (f : Fin 10) (l : Fin 33) :
    val_main_v0 (F := Ideal) x0 x1 x2 (ix3 b (⟨20 + f.val, by omega⟩ : Fin 60) l) = x1 (ix3 b f l) := by
  unfold val_main_v0
  refine concatenate_apply_piece (t := S16384x60x33) 1 [⟨S16384x20x33, x0⟩, ⟨S16384x10x33, x1⟩, ⟨S16384x30x33, x2⟩] _ _ 1 (by decide : (1 : ℕ) < 3) S16384x10x33 x1 rfl rfl 20 rfl (ix3 b f l) (fun a ha => ?_) ?_
  · match a with
    | ⟨0, _⟩ => rfl
    | ⟨1, _⟩ => exact absurd rfl ha
    | ⟨2, _⟩ => rfl
  · rfl

/-- A field among the last thirty is a field of the third group, thirty places earlier. -/
theorem joined_third (b : Fin 16384) (f : Fin 30) (l : Fin 33) :
    val_main_v0 (F := Ideal) x0 x1 x2 (ix3 b (⟨30 + f.val, by omega⟩ : Fin 60) l) = x2 (ix3 b f l) := by
  unfold val_main_v0
  refine concatenate_apply_piece (t := S16384x60x33) 1 [⟨S16384x20x33, x0⟩, ⟨S16384x10x33, x1⟩, ⟨S16384x30x33, x2⟩] _ _ 2 (by decide : (2 : ℕ) < 3) S16384x30x33 x2 rfl rfl 30 rfl (ix3 b f l) (fun a ha => ?_) ?_
  · match a with
    | ⟨0, _⟩ => rfl
    | ⟨1, _⟩ => exact absurd rfl ha
    | ⟨2, _⟩ => rfl
  · rfl

/-- A coordinate summed over the sixty joined fields is the three groups' sums added. -/
theorem sum_joined (b : Fin 16384) (l : Fin 33) :
    ∑ k : Fin 60, val_main_v0 (F := Ideal) x0 x1 x2 (ix3 b k l) = fieldSum x0 x1 x2 b l := by
  rw [sum_sixty]
  simp only [joined_first, joined_second, joined_third]
  rfl

/-- And so is the sum of its squares. -/
theorem sum_joined_sq (b : Fin 16384) (l : Fin 33) :
    ∑ k : Fin 60, val_main_v0 (F := Ideal) x0 x1 x2 (ix3 b k l) * val_main_v0 (F := Ideal) x0 x1 x2 (ix3 b k l)
      = fieldSqSum x0 x1 x2 b l := by
  rw [sum_sixty]
  simp only [joined_first, joined_second, joined_third]
  rfl

/-! ## The reference's stages at an index -/

/-- The latent part of the joined array. -/
theorem latent_at (b : Fin 16384) (k : Fin 60) (l : Fin 32) :
    val_main_v1 (F := Ideal) x0 x1 x2 (ix3 b k l) = val_main_v0 (F := Ideal) x0 x1 x2 (ix3 b k (latent l)) :=
  (val_main_v1_apply x0 x1 x2 _).trans (congrArg _ (funext fun a => Fin.ext (by
    match a with
    | ⟨0, _⟩ => rfl
    | ⟨1, _⟩ => rfl
    | ⟨2, _⟩ => rfl)))

/-- The latent coordinate `l` summed over the fields of sample `b`. -/
theorem latent_sum_at (b : Fin 16384) (l : Fin 32) :
    val_main_v4 (F := Ideal) x0 x1 x2 (ix2 b l) = fieldSum x0 x1 x2 b (latent l) := by
  rw [val_main_v4_apply, val_main_cst_apply, Ideal.ofBits_def, Ideal.ofBits_zero_f32, zero_add]
  have e : ∀ k : Fin 60, idx_main_v4 (ix2 b l) k = ix3 b k l := fun k => funext fun a => Fin.ext (by
    match a with
    | ⟨0, _⟩ => rfl
    | ⟨1, _⟩ => rfl
    | ⟨2, _⟩ => rfl)
  simp only [e, latent_at]
  exact sum_joined x0 x1 x2 b (latent l)

/-- Its squares summed over the fields of sample `b`. -/
theorem latent_sq_sum_at (b : Fin 16384) (l : Fin 32) :
    val_main_v6 (F := Ideal) x0 x1 x2 (ix2 b l) = fieldSqSum x0 x1 x2 b (latent l) := by
  rw [val_main_v6_apply, val_main_cst_0_apply, Ideal.ofBits_def, Ideal.ofBits_zero_f32, zero_add]
  have e : ∀ k : Fin 60, idx_main_v6 (ix2 b l) k = ix3 b k l := fun k => funext fun a => Fin.ext (by
    match a with
    | ⟨0, _⟩ => rfl
    | ⟨1, _⟩ => rfl
    | ⟨2, _⟩ => rfl)
  simp only [e, val_main_v5_apply, Ideal.mulf_def, latent_at]
  exact sum_joined_sq x0 x1 x2 b (latent l)

/-- The linear terms summed over the fields of sample `b`: the last number of every joined field, the unit axis the
    slice leaves cast away. -/
theorem linear_sum_at (b : Fin 16384) :
    val_main_v12 (F := Ideal) x0 x1 x2 (ix1 b) = fieldSum x0 x1 x2 b linear := by
  rw [val_main_v12_apply, val_main_cst_3_apply, Ideal.ofBits_def, Ideal.ofBits_zero_f32, zero_add]
  have e : ∀ k : Fin 60, val_main_v3 (F := Ideal) x0 x1 x2 (idx_main_v12 (ix1 b) k)
      = val_main_v0 (F := Ideal) x0 x1 x2 (ix3 b k linear) := fun k =>
    (val_main_v3_apply x0 x1 x2 _).trans ((val_main_v2_apply x0 x1 x2 _).trans (congrArg _ (funext fun a => Fin.ext (by
      have hk : k.val < 60 := k.isLt
      match a with
      | ⟨0, _⟩ => show (b.val * 60 + k.val) / 60 = b.val; omega
      | ⟨1, _⟩ => show (b.val * 60 + k.val) / 1 % 60 = k.val; omega
      | ⟨2, _⟩ => rfl))))
  simp only [e]
  exact sum_joined x0 x1 x2 b linear

/-- The cross term of sample `b` before it is halved. -/
theorem cross_at (b : Fin 16384) :
    val_main_v9 (F := Ideal) x0 x1 x2 (ix1 b)
      = ∑ l : Fin 32, (fieldSum x0 x1 x2 b (latent l) * fieldSum x0 x1 x2 b (latent l) - fieldSqSum x0 x1 x2 b (latent l)) := by
  rw [val_main_v9_apply, val_main_cst_1_apply, Ideal.ofBits_def, Ideal.ofBits_zero_f32, zero_add]
  have e : ∀ l : Fin 32, idx_main_v9 (ix1 b) l = ix2 b l := fun l => funext fun a => Fin.ext (by
    match a with
    | ⟨0, _⟩ => rfl
    | ⟨1, _⟩ => rfl)
  simp only [e, val_main_v8_apply, val_main_v7_apply, latent_sum_at, latent_sq_sum_at, Ideal.subf_def, Ideal.mulf_def]

/-! ## The reference's result -/

/-- The reference's result array holds, at sample `b`, the score of sample `b`. -/
theorem result_is_score :
    val_main_v19 (F := Ideal) x0 x1 x2 = fun i => score x0 x1 x2 (i 0) := by
  funext i
  obtain ⟨b, rfl⟩ : ∃ b : Fin 16384, i = ix1 b := ⟨i 0, eq_ix1 i⟩
  rw [val_main_v19_apply, val_main_v18_apply, val_main_cst_5_apply, val_main_v17_apply, val_main_v16_apply,
    val_main_cst_4_apply, val_main_v15_apply, val_main_v14_apply, val_main_v13_apply, val_main_v11_apply,
    val_main_v10_apply, val_main_cst_2_apply, cross_at, linear_sum_at]
  exact logistic_spelt _

end Cert.ReferenceIdeal.RefValue

end
-- ==== Proof.lean ====
/-
  The factorization-machine score kernel against its reference, on the extended reals.

  Both programs take three groups of field vectors (20, 10 and 30 fields a sample, 33 numbers a field) for 16384
  samples and return, for every sample, the sigmoid of half the pairwise cross term of the latent factors plus the
  sum of the linear terms (Proof/Spec.lean: `Cert.FmScore.score`). The kernel walks the samples in 128 blocks of 128
  rows and sums each group's fields apart before adding the three sums; the reference joins the three groups along
  the field axis and sums over all sixty fields at once. The two agree because a sum over sixty positions is the sum
  over its first twenty, next ten and last thirty (`sum_sixty`): addition on the extended reals is commutative and
  associative, so nothing here needs the inputs to be finite. The kernel's one sigmoid operation and the reference's
  one over one plus an exponential are one function (`logistic_spelt`).

  The three frames: the kernel's two are the generated frames, the reference's is its run with the result dropped.
  The idealized kernel is the kernel's own text read on the extended reals, so there is nothing to preserve.
  The value claim: the kernel's result array ends at the score of every sample (Proof/KernelValue.lean, over
  Proof/KernelBody.lean), and so does the reference's (Proof/RefValue.lean).
-/
import proofs.«176207_j30408368456213_1_alg».proof.Defs
import proofs.«176207_j30408368456213_1_alg».proof.Proof.Gen.Kernel
import proofs.«176207_j30408368456213_1_alg».proof.Proof.Gen.Kernel.Skeleton
import proofs.«176207_j30408368456213_1_alg».proof.Proof.Gen.Kernel.Launch
import proofs.«176207_j30408368456213_1_alg».proof.Proof.Gen.Kernel.Points
import proofs.«176207_j30408368456213_1_alg».proof.Proof.Gen.Kernel.Frame
import proofs.«176207_j30408368456213_1_alg».proof.Proof.Gen.KernelIdeal
import proofs.«176207_j30408368456213_1_alg».proof.Proof.Gen.KernelIdeal.Skeleton
import proofs.«176207_j30408368456213_1_alg».proof.Proof.Gen.KernelIdeal.Launch
import proofs.«176207_j30408368456213_1_alg».proof.Proof.Gen.KernelIdeal.Points
import proofs.«176207_j30408368456213_1_alg».proof.Proof.Gen.KernelIdeal.Frame
import proofs.«176207_j30408368456213_1_alg».proof.Proof.Gen.ReferenceIdeal
import proofs.«176207_j30408368456213_1_alg».proof.Proof.Gen.ReferenceIdeal.Run
import proofs.«176207_j30408368456213_1_alg».proof.Proof.Gen.ReferenceIdeal.Read
import proofs.«176207_j30408368456213_1_alg».proof.Proof.Gen.Pre_finite_inputs
import proofs.«176207_j30408368456213_1_alg».proof.Proof.KernelValue
import proofs.«176207_j30408368456213_1_alg».proof.Proof.RefValue
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the three arguments, both programs end with the score of every sample. -/
theorem algebraic : Cert.algebraic_KernelIdeal_ReferenceIdeal := by
  intro m ρ m' ρ' _ hagree
  refine ⟨fun c => Cert.KernelIdeal.ScoreValue.scoreVec m c, Cert.KernelIdeal.ScoreValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_is_score,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
